-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S262144x128 : Shape := ⟨2, ![262144, 128]⟩
abbrev S262144 : Shape := ⟨1, ![262144]⟩
abbrev S384x128 : Shape := ⟨2, ![384, 128]⟩
abbrev S384 : Shape := ⟨1, ![384]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S262144x128 : S_.BroadcastsInDim S262144x128 (![] : Fin 0 → Fin S262144x128.rank)
  reducesTo_S262144x128_S_d0_1 : S262144x128.ReducesTo [0, 1] S_
  bcast_S_S262144 : S_.BroadcastsInDim S262144 (![] : Fin 0 → Fin S262144.rank)
  reducesTo_S262144_S_d0 : S262144.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg7 : FVec F S384 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg4 : FVec F S384x128 .f32) (main_arg5 : FVec F S384x128 .f32) (main_arg6 : FVec F S384 .f32) (main_arg7 : FVec F S384 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S384x128 .f32 := Host.absf main_arg4
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_v33

def fn {F : FTy → Type} [FloatOps F] (main_arg0 : FVec F S1000000x128 .f32) (main_arg1 : FVec F S1000000 .f32) (main_arg2 : FVec F S262144x128 .f32) (main_arg3 : FVec F S262144 .f32) (main_arg4 : FVec F S384x128 .f32) (main_arg5 : FVec F S384x128 .f32) (main_arg6 : FVec F S384 .f32) (main_arg7 : FVec F S384 .f32) (main_arg8 : IVec S262144 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg4 main_arg5 main_arg6 main_arg7 main_v13 main_v16
-- ==== Kernel.lean ====
abbrev S1000000x128 : Shape := ⟨2, ![1000000, 128]⟩
abbrev S1000000 : Shape := ⟨1, ![1000000]⟩
abbrev S262144x128 : Shape := ⟨2, ![262144, 128]⟩
abbrev S262144 : Shape := ⟨1, ![262144]⟩
abbrev S384x128 : Shape := ⟨2, ![384, 128]⟩
abbrev S384 : Shape := ⟨1, ![384]⟩
abbrev S_ : Shape := ⟨0, ![]⟩
abbrev S262144x1 : Shape := ⟨2, ![262144, 1]⟩
abbrev S128x384 : Shape := ⟨2, ![128, 384]⟩
abbrev S1x384 : Shape := ⟨2, ![1, 384]⟩
abbrev S2048x128 : Shape := ⟨2, ![2048, 128]⟩
abbrev S2048x384 : Shape := ⟨2, ![2048, 384]⟩

abbrev nBuf : Space → Nat
  | .hbm => 41
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000, .f32⟩
  | .hbm, ⟨2, _⟩ => ⟨S262144x128, .f32⟩
  | .hbm, ⟨3, _⟩ => ⟨S262144, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x128, .f32⟩
  | .hbm, ⟨18, _⟩ => ⟨S128x384, .f32⟩
  | .hbm, ⟨19, _⟩ => ⟨S128x384, .f32⟩
  | .hbm, ⟨20, _⟩ => ⟨S1x384, .f32⟩
  | .hbm, ⟨21, _⟩ => ⟨S1x384, .f32⟩
  | .hbm, ⟨22, _⟩ => ⟨S262144x128, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S1000000x128, .f32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S1000000, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S2048x128, .f32⟩
  | .local _ .vmem, ⟨9, _⟩ => ⟨S2048x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  transposes_S384x128_S128x384_1_0 : S384x128.Transposes [1, 0] S128x384
  shapeCasts_S384_S1x384 : S384.ShapeCasts S1x384
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  shapeCasts_S2048x128_S2048x128 : S2048x128.ShapeCasts S2048x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  gather_S1000000x128_S262144x1_S262144x128_1_0_n_n_0_1_1128_wf : GatherDims.WF S1000000x128 S262144x1 S262144x128 [1] [0] [] [0] [] 1 ![1, 128]
  dot_S2048x128_S128x384_S2048x384_1_0_0_1_n_n_wf : DotDims.WF S2048x128 S128x384 S2048x384 [1] [0] [0] [1] [] []
  scatter_S1000000x128_S262144x1_S262144x128_1_0_0_1_wf : ScatterDims.WF S1000000x128 S262144x1 S262144x128 [1] [0] [0] 1
  scatter_S1000000_S262144x1_S262144_n_0_0_1_wf : ScatterDims.WF S1000000 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S262144x128.size a
  hwx0_6 : ∀ i : grid0.Coords, EltTy.bits .f32 = 32 ∨ (Rect.block (s := S262144x128) S2048x128.size (cc0_transform_6 i) (hinb0_6 i)).WholeWords (EltTy.packing .f32)

variable [Facts₀]

def gather_S1000000x128_S262144x1_S262144x128_1_0_n_n_0_1_1128 : GatherDims S1000000x128 S262144x1 S262144x128 where
  offsetDims := [1]
  collapsedSliceDims := [0]
  operandBatchingDims := []
  startIndicesBatchingDims := []
  startIndexMap := [0]
  indexVectorDim := 1
  sliceSizes := ![1, 128]
  wf := gather_S1000000x128_S262144x1_S262144x128_1_0_n_n_0_1_1128_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def scatter_S1000000x128_S262144x1_S262144x128_1_0_0_1 : ScatterDims S1000000x128 S262144x1 S262144x128 where
  updateWindowDims := [1]
  insertedWindowDims := [0]
  scatterDimsToOperandDims := [0]
  indexVectorDim := 1
  wf := scatter_S1000000x128_S262144x1_S262144x128_1_0_0_1_wf
def scatter_S1000000_S262144x1_S262144_n_0_0_1 : ScatterDims S1000000 S262144x1 S262144 where
  updateWindowDims := []
  insertedWindowDims := [0]
  scatterDimsToOperandDims := [0]
  indexVectorDim := 1
  wf := scatter_S1000000_S262144x1_S262144_n_0_0_1_wf

abbrev win0_0 : Pipeline.Window sig grid0 :=
  Pipeline.Window.ofSpec (Memref.whole main_arg2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S262144x128 : Shape := ⟨2, ![262144, 128]⟩
abbrev S262144 : Shape := ⟨1, ![262144]⟩
abbrev S384x128 : Shape := ⟨2, ![384, 128]⟩
abbrev S384 : Shape := ⟨1, ![384]⟩
abbrev S_ : Shape := ⟨0, ![]⟩
abbrev S262144x1 : Shape := ⟨2, ![262144, 1]⟩
abbrev S128x384 : Shape := ⟨2, ![128, 384]⟩
abbrev S262144x384 : Shape := ⟨2, ![262144, 384]⟩
abbrev S1x384 : Shape := ⟨2, ![1, 384]⟩

abbrev nBuf : Space → Nat
  | .hbm => 79
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .f32⟩
  | .hbm, ⟨2, _⟩ => ⟨S262144x128, .f32⟩
  | .hbm, ⟨3, _⟩ => ⟨S262144, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x128, .f32⟩
  | .hbm, ⟨18, _⟩ => ⟨S128x384, .f32⟩
  | .hbm, ⟨19, _⟩ => ⟨S262144x384, .f32⟩
  | .hbm, ⟨20, _⟩ => ⟨S1x384, .f32⟩
  | .hbm, ⟨21, _⟩ => ⟨S262144x384, .f32⟩
  | .hbm, ⟨22, _⟩ => ⟨S262144x384, .f32⟩
  | .hbm, ⟨23, _⟩ => ⟨S128x384, .f32⟩
  | .hbm, ⟨24, _⟩ => ⟨S262144x384, .f32⟩
  | .hbm, ⟨25, _⟩ => ⟨S1x384, .f32⟩
  | .hbm, ⟨26, _⟩ => ⟨S262144x384, .f32⟩
  | .hbm, ⟨27, _⟩ => ⟨S262144x384, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S262144x128, .f32⟩
  | .hbm, ⟨35, _⟩ => ⟨S262144x128, .f32⟩
  | .hbm, ⟨36, _⟩ => ⟨S262144x128, .f32⟩
  | .hbm, ⟨37, _⟩ => ⟨S_, .f32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S_, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S262144x128, .f32⟩
  | .hbm, ⟨55, _⟩ => ⟨S_, .f32⟩
  | .hbm, ⟨56, _⟩ => ⟨S262144x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S262144, .i32⟩
  | .hbm, ⟨68, _⟩ => ⟨S262144x1, .i32⟩
  | .hbm, ⟨69, _⟩ => ⟨S1000000x128, .f32⟩
  | .hbm, ⟨70, _⟩ => ⟨S_, .i32⟩
  | .hbm, ⟨71, _⟩ => ⟨S262144, .i32⟩
  | .hbm, ⟨72, _⟩ => ⟨S262144, .i1⟩
  | .hbm, ⟨73, _⟩ => ⟨S_, .i32⟩
  | .hbm, ⟨74, _⟩ => ⟨S262144, .i32⟩
  | .hbm, ⟨75, _⟩ => ⟨S262144, .i32⟩
  | .hbm, ⟨76, _⟩ => ⟨S262144, .i32⟩
  | .hbm, ⟨77, _⟩ => ⟨S262144x1, .i32⟩
  | .hbm, ⟨78, _⟩ => ⟨S1000000, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_c_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  transposes_S384x128_S128x384_1_0 : S384x128.Transposes [1, 0] S128x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  bcast_S_S262144x128 : S_.BroadcastsInDim S262144x128 (![] : Fin 0 → Fin S262144x128.rank)
  gather_S1000000x128_S262144x1_S262144x128_1_0_n_n_0_1_1128_wf : GatherDims.WF S1000000x128 S262144x1 S262144x128 [1] [0] [] [0] [] 1 ![1, 128]
  dot_S262144x128_S128x384_S262144x384_1_0_0_1_n_n_wf : DotDims.WF S262144x128 S128x384 S262144x384 [1] [0] [0] [1] [] []
  scatter_S1000000x128_S262144x1_S262144x128_1_0_0_1_wf : ScatterDims.WF S1000000x128 S262144x1 S262144x128 [1] [0] [0] 1
  scatter_S1000000_S262144x1_S262144_n_0_0_1_wf : ScatterDims.WF S1000000 S262144x1 S262144 [] [0] [0] 1

variable [Facts₀]

def gather_S1000000x128_S262144x1_S262144x128_1_0_n_n_0_1_1128 : GatherDims S1000000x128 S262144x1 S262144x128 where
  offsetDims := [1]
  collapsedSliceDims := [0]
  operandBatchingDims := []
  startIndicesBatchingDims := []
  startIndexMap := [0]
  indexVectorDim := 1
  sliceSizes := ![1, 128]
  wf := gather_S1000000x128_S262144x1_S262144x128_1_0_n_n_0_1_1128_wf
def dot_S262144x128_S128x384_S262144x384_1_0_0_1_n_n : DotDims S262144x128 S128x384 S262144x384 where
  lhsContracting := [1]
  rhsContracting := [0]
  lhsNonContracting := [0]
  rhsNonContracting := [1]
  lhsBatch := []
  rhsBatch := []
  wf := dot_S262144x128_S128x384_S262144x384_1_0_0_1_n_n_wf
def scatter_S1000000x128_S262144x1_S262144x128_1_0_0_1 : ScatterDims S1000000x128 S262144x1 S262144x128 where
  updateWindowDims := [1]
  insertedWindowDims := [0]
  scatterDimsToOperandDims := [0]
  indexVectorDim := 1
  wf := scatter_S1000000x128_S262144x1_S262144x128_1_0_0_1_wf
def scatter_S1000000_S262144x1_S262144_n_0_0_1 : ScatterDims S1000000 S262144x1 S262144 where
  updateWindowDims := []
  insertedWindowDims := [0]
  scatterDimsToOperandDims := [0]
  indexVectorDim := 1
  wf := scatter_S1000000_S262144x1_S262144_n_0_0_1_wf

class Facts : Prop extends Facts₀ where

variable [Facts]
-- ==== Proof.GruCell.lean ====
/-
  The gated recurrent cell, one entry at a time.

  A row of the update reads one row `x` of the messages and one row `h` of the gathered node states, both of
  length 128. Each of the two rows is multiplied into a 128 x 384 matrix and a bias of length 384 is added:
  `pre row Wt b c = (sum over k of row k * Wt k c) + b c` is column `c` of that product. The 384 columns are three
  gates of 128 lanes each: lane `q` of the reset gate is column `q`, of the update gate column `128 + q`, of the
  candidate column `256 + q`. With `sigma t = 1 / (1 + e^(-t))`,

      r = sigma (gi_r + gh_r),   z = sigma (gi_z + gh_z),   n = tanh (gi_n + r * gh_n),
      new state at lane q = (1 - z) * n + z * h q.

  Everything is over the extended reals, with the operations' conventions at the infinities; the sums and products are
  written in one fixed arrangement, so no law of arithmetic is needed to compare two programs that both compute this.
-/
import Idealize.ShloMosaic.Lib.ValueIdx
import Idealize.ShloMosaic.PureOps.Ideal
import Idealize.ShloMosaic.PureOps.IdealRules

noncomputable section

namespace Cert.GruCell

open Idealize.ShloMosaic Idealize.ShloMosaic.ValueIdx

/-- Column `o + q` of the 384 gate columns: the gates are the thirds that start at `o = 0, 128, 256`. -/
abbrev lane (o : ℕ) (ho : o + 128 ≤ 384) (q : Fin 128) : Fin 384 := ⟨o + q.val, by omega⟩

/-- Column `c` of a row times a 128 x 384 matrix, plus the bias: one gate's input before the nonlinearity. -/
def pre (row : Fin 128 → EReal) (Wt : Fin 128 → Fin 384 → EReal) (b : Fin 384 → EReal) (c : Fin 384) : EReal :=
  (∑ k : Fin 128, row k * Wt k c) + b c

/-- Lane `q` of the new state from the message row `xrow`, the state row `hrow`, the two weight matrices read as
    (contracted index, column) and the two biases. -/
def cellAt (xrow hrow : Fin 128 → EReal) (Wi Wh : Fin 128 → Fin 384 → EReal) (bi bh : Fin 384 → EReal)
    (q : Fin 128) : EReal :=
  (1 - Ideal.logistic (pre xrow Wi bi (lane 128 (by omega) q) + pre hrow Wh bh (lane 128 (by omega) q)))
      * Ideal.tanh (pre xrow Wi bi (lane 256 (by omega) q)
          + Ideal.logistic (pre xrow Wi bi (lane 0 (by omega) q) + pre hrow Wh bh (lane 0 (by omega) q))
            * pre hrow Wh bh (lane 256 (by omega) q))
    + Ideal.logistic (pre xrow Wi bi (lane 128 (by omega) q) + pre hrow Wh bh (lane 128 (by omega) q)) * hrow q

/-- The cell depends on its rows, matrices and biases only through their entries. -/
theorem cellAt_congr {xrow xrow' hrow hrow' : Fin 128 → EReal} {Wi Wi' Wh Wh' : Fin 128 → Fin 384 → EReal}
    {bi bi' bh bh' : Fin 384 → EReal} (q : Fin 128) (e1 : ∀ k, xrow k = xrow' k) (e2 : ∀ k, hrow k = hrow' k)
    (e3 : ∀ k c, Wi k c = Wi' k c) (e4 : ∀ k c, Wh k c = Wh' k c) (e5 : ∀ c, bi c = bi' c) (e6 : ∀ c, bh c = bh' c) :
    cellAt xrow hrow Wi Wh bi bh q = cellAt xrow' hrow' Wi' Wh' bi' bh' q := by
  obtain rfl : xrow = xrow' := funext e1
  obtain rfl : hrow = hrow' := funext e2
  obtain rfl : Wi = Wi' := funext fun k => funext (e3 k)
  obtain rfl : Wh = Wh' := funext fun k => funext (e4 k)
  obtain rfl : bi = bi' := funext e5
  obtain rfl : bh = bh' := funext e6
  rfl

/-- The f32 word of 1.0 is the number one. -/
theorem one_f32 : Ideal.ofBits .f32 0x3F800000#32 = 1 := IdealRules.sign_bit.ideal_onePat .f32

/-- The shapes of the arrays the cell is applied to. -/
abbrev SRows : Shape := ⟨2, ![262144, 128]⟩
abbrev SWeights : Shape := ⟨2, ![384, 128]⟩
abbrev SBias : Shape := ⟨1, ![384]⟩

/-- The whole update: entry `(r, q)` of the new states is the cell applied to row `r` of the messages and of the
    gathered states, with the weights as stored (`[384, 128]`: column `c` of the product reads row `c`). -/
def newState (x h : SRows.Idx → EReal) (Wih Whh : SWeights.Idx → EReal) (bih bhh : SBias.Idx → EReal) :
    SRows.Idx → EReal := fun i =>
  cellAt (fun k => x (ix2 (n0 := 262144) (i 0) k)) (fun k => h (ix2 (n0 := 262144) (i 0) k))
    (fun k c => Wih (ix2 c k)) (fun k c => Whh (ix2 c k)) (fun c => bih (ix1 c)) (fun c => bhh (ix1 c)) (i 1)

theorem newState_apply (x h : SRows.Idx → EReal) (Wih Whh : SWeights.Idx → EReal) (bih bhh : SBias.Idx → EReal)
    (r : Fin 262144) (q : Fin 128) :
    newState x h Wih Whh bih bhh (ix2 r q)
      = cellAt (fun k => x (ix2 r k)) (fun k => h (ix2 r k)) (fun k c => Wih (ix2 c k)) (fun k c => Whh (ix2 c k))
          (fun c => bih (ix1 c)) (fun c => bhh (ix1 c)) q := rfl

end Cert.GruCell

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.KernelEntry.lean ====
/-
  What the kernel body stores, read at one entry.

  The body holds a block of 2048 message rows `v0`, the matching block of gathered state rows `v2`, the two weight
  matrices already transposed to `[128, 384]` (`v5`, `v8`) and the two biases as rows `[1, 384]` (`v11`, `v13`).
  The changes of float format are the identity on the extended reals; each matrix product accumulates into zero, so at
  `(p, c)` it is the sum over `k` of `row p k * matrix k c`; the bias row is repeated down the 2048 rows; the three
  column slices pick the gates' thirds. So the stored value at `(p, q)` is the cell of `GruCell` at row `p`, lane `q`.
-/
import proofs.«116044_j78984448573532_1_alg».proof.Proof.Gen.KernelIdeal.Skeleton
import proofs.«116044_j78984448573532_1_alg».proof.Proof.GruCell
import proofs.«116044_j78984448573532_1_alg».proof.Proof.LibPlainDot
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx Cert.GruCell

/-- The body's two products have the dimension numbers of an ordinary `[2048, 128]` by `[128, 384]` product. -/
theorem dot_plain : dot_S2048x128_S128x384_S2048x384_1_0_0_1_n_n = DotDims.plain 2048 128 384 := rfl

/-- One gate input of the body at `(p, c)`: the product into zero plus the repeated bias row. -/
theorem gate_apply (row : FVec Ideal S2048x128 .bf16) (Wt : FVec Ideal S128x384 .bf16) (b : FVec Ideal S1x384 .f32)
    (p : Fin 2048) (c : Fin 384) :
    addf (matmul dot_S2048x128_S128x384_S2048x384_1_0_0_1_n_n none row Wt (constant S2048x384 .f32 0x00000000#32))
        (broadcastTo S2048x384 b broadcasts_S1x384_S2048x384) (ix2 p c)
      = pre (fun k => row (ix2 p k)) (fun k c => Wt (ix2 k c)) (fun c => b (ix2 (0 : Fin 1) c)) c := by
  rw [addf_apply, broadcastTo_1b_ab_apply]
  unfold pre
  congr 1
  rw [dot_plain]
  exact Cert.PlainDot.matmul_plain_apply none row Wt p c

/-- The body's arithmetic after the two gate inputs `GI`, `GH` (both `[2048, 384]`): the thirds are sliced out, the reset
    and update gates pass through the logistic function, the candidate through tanh, and the old state `h` is mixed in. -/
theorem mix_apply (GI GH : FVec Ideal S2048x384 .f32) (h : FVec Ideal S2048x128 .f32) (p : Fin 2048) (q : Fin 128) :
    addf (mulf (subf (broadcast S2048x128 (Scalar.ofBits .f32 0x3F800000#32))
              (logistic (addf (extractStridedSlice S2048x128 ![0, 128] GI slices_S2048x384_o0_128_S2048x128)
                (extractStridedSlice S2048x128 ![0, 128] GH slices_S2048x384_o0_128_S2048x128))))
            (tanh (addf (extractStridedSlice S2048x128 ![0, 256] GI slices_S2048x384_o0_256_S2048x128)
              (mulf (logistic (addf (extractStridedSlice S2048x128 ![0, 0] GI slices_S2048x384_o0_0_S2048x128)
                  (extractStridedSlice S2048x128 ![0, 0] GH slices_S2048x384_o0_0_S2048x128)))
                (extractStridedSlice S2048x128 ![0, 256] GH slices_S2048x384_o0_256_S2048x128)))))
          (mulf (logistic (addf (extractStridedSlice S2048x128 ![0, 128] GI slices_S2048x384_o0_128_S2048x128)
              (extractStridedSlice S2048x128 ![0, 128] GH slices_S2048x384_o0_128_S2048x128))) h) (ix2 p q)
      = (1 - Ideal.logistic (GI (ix2 p (lane 128 (by omega) q)) + GH (ix2 p (lane 128 (by omega) q))))
          * Ideal.tanh (GI (ix2 p (lane 256 (by omega) q))
              + Ideal.logistic (GI (ix2 p (lane 0 (by omega) q)) + GH (ix2 p (lane 0 (by omega) q)))
                * GH (ix2 p (lane 256 (by omega) q)))
        + Ideal.logistic (GI (ix2 p (lane 128 (by omega) q)) + GH (ix2 p (lane 128 (by omega) q))) * h (ix2 p q) := by
  have e1 : Scalar.ofBits (F := Ideal) .f32 0x3F800000#32 = 1 := one_f32
  simp only [addf_apply, mulf_apply, subf_apply, broadcast_apply, logistic, tanh, Ideal.logistic_def, Ideal.tanh_def,
    slice2_axis1_eq, e1]

/-- THE STORED VALUE AT `(p, q)`: the cell at row `p` of the two row blocks, lane `q`. -/
theorem pay_apply (v0 v2 : Vec Ideal S2048x128 .f32) (v5 v8 : Vec Ideal S128x384 .f32) (v11 v13 : Vec Ideal S1x384 .f32)
    (p : Fin 2048) (q : Fin 128) :
    k0_pay1 (F := Ideal) v0 v2 v5 v8 v11 v13 (ix2 p q)
      = cellAt (fun k => v0 (ix2 p k)) (fun k => v2 (ix2 p k)) (fun k c => v5 (ix2 k c)) (fun k c => v8 (ix2 k c))
          (fun c => v11 (ix2 (0 : Fin 1) c)) (fun c => v13 (ix2 (0 : Fin 1) c)) q := by
  unfold k0_pay1
  simp only [shapeCast_self]
  rw [mix_apply]
  simp only [gate_apply, truncf_apply]
  rfl

end Cert.KernelIdeal.Entry

end
-- ==== Proof.KernelArray.lean ====
/-
  From the kernel's blocks to the whole array of new states.

  The grid has 128 points; point `t` works on rows `2048 t … 2048 t + 2047` of the messages and of the gathered
  states and writes the same rows of the result, while the weights and biases are one block each, the same at every
  point. So entry `(p, k)` of point `t`'s message block is entry `(2048 t + p, k)` of the array, and what point `t`
  writes back is rows `2048 t …` of ONE function of the arrays, `newState`. Row `r` is written by point `r / 2048`, so
  the 128 blocks cover the result, which therefore ends holding `newState` everywhere.

  The arrays the region finds are the program's arguments, except three that host operations made just before: the
  gathered states (kept as they are found, `V … main_v6`), the transposed weights and the biases as rows; the last two
  kinds are read back through the transpose and the cast.
-/
import proofs.«116044_j78984448573532_1_alg».proof.Proof.Gen.KernelIdeal.Frame
import proofs.«116044_j78984448573532_1_alg».proof.Proof.KernelEntry
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.GruCell

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row-blocked windows sit at block `(t, 0)`, the four whole-array
    windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `(p, k)` of point `t`'s message block is entry `(2048 t + p, k)` of the messages. -/
theorem msg_block (c : Dev nD) (t : Fin cfg0.N) (p : Fin 2048) (k : Fin 128) (r : Fin 262144)
    (hr : r.val = 2048 * t.val + p.val) :
    (iblk m c 0 t : Vec Ideal S2048x128 .f32) (ix2 p k) = (V m c main_arg2 : S262144x128.Idx → Elt Ideal .f32) (ix2 r k) := by
  obtain ⟨e0, e1, -⟩ := idx_facts t
  unfold iblk
  rw [View.read_apply]
  show V m c main_arg2 _ = V m c main_arg2 _
  refine congrArg (V m c main_arg2 : S262144x128.Idx → Elt Ideal .f32) ?_
  funext a; apply Fin.ext
  match a with
  | ⟨0, _⟩ => show win0_0.index t (0 : Fin 2) * 2048 + 1 * p.val = r.val; rw [e0, hr]; omega
  | ⟨1, _⟩ => show win0_0.index t (1 : Fin 2) * 128 + 1 * k.val = k.val; rw [e1]; omega

/-- The same rows of the gathered states. -/
theorem state_block (c : Dev nD) (t : Fin cfg0.N) (p : Fin 2048) (k : Fin 128) (r : Fin 262144)
    (hr : r.val = 2048 * t.val + p.val) :
    (iblk m c 1 t : Vec Ideal S2048x128 .f32) (ix2 p k) = (V m c main_v6 : S262144x128.Idx → Elt Ideal .f32) (ix2 r k) := by
  obtain ⟨-, -, e0, e1, -⟩ := idx_facts t
  unfold iblk
  rw [View.read_apply]
  show V m c main_v6 _ = V m c main_v6 _
  refine congrArg (V m c main_v6 : S262144x128.Idx → Elt Ideal .f32) ?_
  funext a; apply Fin.ext
  match a with
  | ⟨0, _⟩ => show win0_1.index t (0 : Fin 2) * 2048 + 1 * p.val = r.val; rw [e0, hr]; omega
  | ⟨1, _⟩ => show win0_1.index t (1 : Fin 2) * 128 + 1 * k.val = k.val; rw [e1]; omega

/-- Each weight window's one block is the whole transposed matrix, -/
theorem wih_block (c : Dev nD) (t : Fin cfg0.N) (k : Fin 128) (cc : Fin 384) :
    (iblk m c 2 t : Vec Ideal S128x384 .f32) (ix2 k cc) = (V m c main_v7 : S128x384.Idx → Elt Ideal .f32) (ix2 k cc) := by
  obtain ⟨-, -, -, -, e0, e1, -⟩ := idx_facts t
  unfold iblk
  rw [View.read_apply]
  show V m c main_v7 _ = V m c main_v7 _
  refine congrArg (V m c main_v7 : S128x384.Idx → Elt Ideal .f32) ?_
  funext a; apply Fin.ext
  match a with
  | ⟨0, _⟩ => show win0_2.index t (0 : Fin 2) * 128 + 1 * k.val = k.val; rw [e0]; omega
  | ⟨1, _⟩ => show win0_2.index t (1 : Fin 2) * 384 + 1 * cc.val = cc.val; rw [e1]; omega

theorem whh_block (c : Dev nD) (t : Fin cfg0.N) (k : Fin 128) (cc : Fin 384) :
    (iblk m c 3 t : Vec Ideal S128x384 .f32) (ix2 k cc) = (V m c main_v8 : S128x384.Idx → Elt Ideal .f32) (ix2 k cc) := by
  obtain ⟨-, -, -, -, -, -, e0, e1, -⟩ := idx_facts t
  unfold iblk
  rw [View.read_apply]
  show V m c main_v8 _ = V m c main_v8 _
  refine congrArg (V m c main_v8 : S128x384.Idx → Elt Ideal .f32) ?_
  funext a; apply Fin.ext
  match a with
  | ⟨0, _⟩ => show win0_3.index t (0 : Fin 2) * 128 + 1 * k.val = k.val; rw [e0]; omega
  | ⟨1, _⟩ => show win0_3.index t (1 : Fin 2) * 384 + 1 * cc.val = cc.val; rw [e1]; omega

/-- and each bias window's one block the whole bias row. -/
theorem bih_block (c : Dev nD) (t : Fin cfg0.N) (z : Fin 1) (cc : Fin 384) :
    (iblk m c 4 t : Vec Ideal S1x384 .f32) (ix2 z cc) = (V m c main_v9 : S1x384.Idx → Elt Ideal .f32) (ix2 z cc) := by
  obtain ⟨-, -, -, -, -, -, -, -, e0, e1, -⟩ := idx_facts t
  unfold iblk
  rw [View.read_apply]
  show V m c main_v9 _ = V m c main_v9 _
  refine congrArg (V m c main_v9 : S1x384.Idx → Elt Ideal .f32) ?_
  funext a; apply Fin.ext
  match a with
  | ⟨0, _⟩ => show win0_4.index t (0 : Fin 2) * 1 + 1 * z.val = z.val; rw [e0]; omega
  | ⟨1, _⟩ => show win0_4.index t (1 : Fin 2) * 384 + 1 * cc.val = cc.val; rw [e1]; omega

theorem bhh_block (c : Dev nD) (t : Fin cfg0.N) (z : Fin 1) (cc : Fin 384) :
    (iblk m c 5 t : Vec Ideal S1x384 .f32) (ix2 z cc) = (V m c main_v10 : S1x384.Idx → Elt Ideal .f32) (ix2 z cc) := by
  obtain ⟨-, -, -, -, -, -, -, -, -, -, e0, e1, -⟩ := idx_facts t
  unfold iblk
  rw [View.read_apply]
  show V m c main_v10 _ = V m c main_v10 _
  refine congrArg (V m c main_v10 : S1x384.Idx → Elt Ideal .f32) ?_
  funext a; apply Fin.ext
  match a with
  | ⟨0, _⟩ => show win0_5.index t (0 : Fin 2) * 1 + 1 * z.val = z.val; rw [e0]; omega
  | ⟨1, _⟩ => show win0_5.index t (1 : Fin 2) * 384 + 1 * cc.val = cc.val; rw [e1]; omega

/-! ## The arrays the host operations before the region made -/

/-- The signed, wrapped node ids as a column: a negative id counts from the end (`id + 1000000`). -/
def idCol (ids : (⟨S262144, .i32⟩ : BufTy).Contents (Elt Ideal)) : (⟨S262144x1, .i32⟩ : BufTy).Contents (Elt Ideal) :=
  broadcastInDim S262144x1 ![0] bcast_S262144_S262144x1_0
    (select (cmpi .slt ids (broadcastInDim S262144 ![] bcast_S_S262144 (constantI S_ 32 0#32)))
      (addi ids (broadcastInDim S262144 ![] bcast_S_S262144 (constantI S_ 32 1000000#32))) ids)

theorem V_wih (c : Dev nD) : (V m c main_v7 : S128x384.Idx → Elt Ideal .f32)
    = transpose S128x384 [1, 0] (m ((c : Thread nD τ).loc main_arg4)) transposes_S384x128_S128x384_1_0 := by
  show StableHlo.after hostOps0 (fun b => m (c, b)) (Proc.devRef .tc main_v7) = _
  after_results <;> rfl

theorem V_whh (c : Dev nD) : (V m c main_v8 : S128x384.Idx → Elt Ideal .f32)
    = transpose S128x384 [1, 0] (m ((c : Thread nD τ).loc main_arg5)) transposes_S384x128_S128x384_1_0 := by
  show StableHlo.after hostOps0 (fun b => m (c, b)) (Proc.devRef .tc main_v8) = _
  after_results <;> rfl

theorem V_bih (c : Dev nD) : (V m c main_v9 : S1x384.Idx → Elt Ideal .f32)
    = shapeCast S1x384 (m ((c : Thread nD τ).loc main_arg6)) shapeCasts_S384_S1x384 := by
  show StableHlo.after hostOps0 (fun b => m (c, b)) (Proc.devRef .tc main_v9) = _
  after_results <;> rfl

theorem V_bhh (c : Dev nD) : (V m c main_v10 : S1x384.Idx → Elt Ideal .f32)
    = shapeCast S1x384 (m ((c : Thread nD τ).loc main_arg7)) shapeCasts_S384_S1x384 := by
  show StableHlo.after hostOps0 (fun b => m (c, b)) (Proc.devRef .tc main_v10) = _
  after_results <;> rfl

theorem V_gathered (c : Dev nD) : (V m c main_v6 : S262144x128.Idx → Elt Ideal .f32)
    = Host.gather gather_S1000000x128_S262144x1_S262144x128_1_0_n_n_0_1_1128 (m ((c : Thread nD τ).loc main_arg0))
        (idCol (m ((c : Thread nD τ).loc main_arg8))) := by
  show StableHlo.after hostOps0 (fun b => m (c, b)) (Proc.devRef .tc main_v6) = _
  after_results <;> rfl

/-! ## What a point writes back, and the array after the run -/

/-- The new states, from the arrays as the region finds them: the arguments, and the gathered states `V … main_v6`. -/
abbrev result (c : Dev nD) : S262144x128.Idx → EReal :=
  newState (m ((c : Thread nD τ).loc main_arg2)) (V m c main_v6) (m ((c : Thread nD τ).loc main_arg4))
    (m ((c : Thread nD τ).loc main_arg5)) (m ((c : Thread nD τ).loc main_arg6)) (m ((c : Thread nD τ).loc main_arg7))

/-- Entry `(p, q)` of what the body stores at point `t` is entry `(2048 t + p, q)` of the new states: the body's
    blocks are rows `2048 t …` of the messages and states, the whole transposed weights (entry `(k, c)` of the
    transpose is entry `(c, k)` of the weights) and the whole bias rows (entry `(0, c)` of the row is entry `c`). -/
theorem entry_eq (c : Dev nD) (t : Fin cfg0.N) (p : Fin 2048) (q : Fin 128) (r : Fin 262144)
    (hr : r.val = 2048 * t.val + p.val) :
    k0_pay1 (F := Ideal) (iblk m c 0 t) (iblk m c 1 t) (iblk m c 2 t) (iblk m c 3 t) (iblk m c 4 t) (iblk m c 5 t) (ix2 p q)
      = result m c (ix2 r q) := by
  refine (Entry.pay_apply (iblk m c 0 t) (iblk m c 1 t) (iblk m c 2 t) (iblk m c 3 t) (iblk m c 4 t) (iblk m c 5 t) p q).trans ?_
  refine (cellAt_congr q ?_ ?_ ?_ ?_ ?_ ?_).trans (newState_apply _ _ _ _ _ _ r q).symm
  · exact fun k => (msg_block m c t p k r hr).trans (congrFun (V_main_arg2 m c) _)
  · exact fun k => state_block m c t p k r hr
  · intro k cc
    rw [wih_block, V_wih]
    exact transpose_ix2_apply _ _ k cc
  · intro k cc
    rw [whh_block, V_whh]
    exact transpose_ix2_apply _ _ k cc
  · intro cc
    rw [bih_block, V_bih]
    exact shapeCast_a_1a_apply _ _ 0 cc
  · intro cc
    rw [bhh_block, V_bhh]
    exact shapeCast_a_1a_apply _ _ 0 cc

/-- The same with the two indices given by their coordinates. -/
theorem block_entry (c : Dev nD) (t : Fin cfg0.N) (j : S2048x128.Idx) (i : S262144x128.Idx)
    (h0 : (i 0).val = 2048 * t.val + (j 0).val) (h1 : (i 1).val = (j 1).val) :
    k0_pay1 (F := Ideal) (iblk m c 0 t) (iblk m c 1 t) (iblk m c 2 t) (iblk m c 3 t) (iblk m c 4 t) (iblk m c 5 t) j
      = result m c i := by
  obtain ⟨p, q, rfl⟩ : ∃ (p : Fin 2048) (q : Fin 128), j = ix2 p q := ⟨j 0, j 1, eq_ix2 j⟩
  obtain ⟨r, q', rfl⟩ : ∃ (r : Fin 262144) (q' : Fin 128), i = ix2 r q' := ⟨i 0, i 1, eq_ix2 i⟩
  obtain rfl : q' = q := Fin.ext h1
  exact entry_eq m c t p q' r h0

/-- WHAT POINT `t` WRITES BACK is block `t` of the new states. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz]
  simp only [View.ld_unit_zero (S := S2048x128) hz, View.ld_unit_zero (S := S128x384) hz, View.ld_unit_zero (S := S1x384) hz]
  obtain ⟨-, -, -, -, -, -, -, -, -, -, -, -, e0, e1⟩ := idx_facts t
  funext j
  rw [View.read_apply]
  refine block_entry m c t j _ ?_ ?_
  · show win0_6.index t (0 : Fin 2) * 2048 + 1 * (j 0).val = 2048 * t.val + (j 0).val
    rw [e0]; omega
  · show win0_6.index t (1 : Fin 2) * 128 + 1 * (j 1).val = (j 1).val
    rw [e1]; omega

/-- An index of the result is in point `t`'s block iff each coordinate is in the block's range on its axis. -/
theorem mem_blk (t : Fin cfg0.N) (i : S262144x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v11).slice (win0_6.rect t)).set ↔ _
  rw [View.set_slice_whole, Rect.mem_set_unit]
  exact Iff.rfl

/-- Row `r` of the result is written by point `r / 2048`: the 128 blocks cover the array. -/
theorem cover (i : S262144x128.Idx) :
    ∃ t : Fin cfg0.N, (cfg0.win 6).flush t = true ∧ i ∈ ((cfg0.win 6).blk t).view.set := by
  have hN : cfg0.N = 128 := N_0
  have hi0 : (i 0).val < 262144 := (i 0).isLt
  have hi1 : (i 1).val < 128 := (i 1).isLt
  let t : Fin cfg0.N := ⟨(i 0).val / 2048, by rw [hN]; omega⟩
  have ht : t.val = (i 0).val / 2048 := rfl
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 128 ≤ (i 1).val ∧ (i 1).val < win0_6.index t (1 : Fin 2) * 128 + 128
    rw [e1]; omega

/-- THE ARRAY after the region: the new states everywhere. -/
theorem final (c : Dev nD) : (dats m 0 c).arrAt 6 cfg0.N = result m c :=
  (dats m 0 c).arrAt_eq_of_cover 6 (result m c) (fun t _ => flushed_eq m c t) cover

end Cert.KernelIdeal.Hand

end
-- ==== Proof.KernelRun.lean ====
/-
  The kernel program's run, read: the two results as functions of the arguments.

  After the region the program scatters the rows of new states back into the node memory, and the timestamps into the
  last-update vector, through the same wrapped node ids the gather used. The region leaves the new states in its
  result array and touches no argument, so the first result is the scatter of `newState` of the arguments and the
  gathered states, the second the scatter of the timestamps, and the arguments end as they began.
-/
import proofs.«116044_j78984448573532_1_alg».proof.Proof.Gen.KernelIdeal.Frame
import proofs.«116044_j78984448573532_1_alg».proof.Proof.KernelArray
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.GruCell

variable (m : (ℓ : Loc nD τ sig) → Buf (Elt Ideal) ℓ) (ρ : Dev nD → PrngReg)

/-- The node memory the program returns, as a function of the arguments: the rows of new states scattered back
    through the wrapped node ids, the new states computed from the messages and the rows gathered through the same ids. -/
def memoryNew (c : Dev nD) : S1000000x128.Idx → EReal :=
  Host.scatter scatter_S1000000x128_S262144x1_S262144x128_1_0_0_1 (fun _ b => b)
    (m ((c : Thread nD τ).loc main_arg0)) (idCol (m ((c : Thread nD τ).loc main_arg8)))
    (newState (m ((c : Thread nD τ).loc main_arg2))
      (Host.gather gather_S1000000x128_S262144x1_S262144x128_1_0_n_n_0_1_1128 (m ((c : Thread nD τ).loc main_arg0))
        (idCol (m ((c : Thread nD τ).loc main_arg8))))
      (m ((c : Thread nD τ).loc main_arg4)) (m ((c : Thread nD τ).loc main_arg5))
      (m ((c : Thread nD τ).loc main_arg6)) (m ((c : Thread nD τ).loc main_arg7)))

/-- The last-update vector it returns: the timestamps scattered through the same ids. -/
def updatesNew (c : Dev nD) : S1000000.Idx → EReal :=
  Host.scatter scatter_S1000000_S262144x1_S262144_n_0_0_1 (fun _ b => b)
    (m ((c : Thread nD τ).loc main_arg1)) (idCol (m ((c : Thread nD τ).loc main_arg8)))
    (m ((c : Thread nD τ).loc main_arg3))

/-- What the operations after the region read: an argument no window stages is as launched, -/
theorem after_arg0 (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0
    (by exact (by decide : ∀ w, Pipeline.arrRef spec0 w ≠ main_arg0))).trans (V_main_arg0 m c)
theorem after_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1
    (by exact (by decide : ∀ w, Pipeline.arrRef spec0 w ≠ main_arg1))).trans (V_main_arg1 m c)
theorem after_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3
    (by exact (by decide : ∀ w, Pipeline.arrRef spec0 w ≠ main_arg3))).trans (V_main_arg3 m c)
theorem after_arg8 (c : Dev nD) :
    Pipeline.withArrays (cfgs 0).spec c (V0 m c) (fun w => (dats m 0 c).arrAt w (cfgs 0).N) (Proc.devRef .tc main_arg8)
      = m ((c : Thread nD τ).loc main_arg8) :=
  (Pipeline.withArrays_of_ne _ c (V0 m c) _ main_arg8
    (by exact (by decide : ∀ w, Pipeline.arrRef spec0 w ≠ main_arg8))).trans (V_main_arg8 m c)
/-- and the region's result array holds the new states. -/
theorem after_result (c : Dev nD) :
    Pipeline.withArrays (cfgs 0).spec c (V0 m c) (fun w => (dats m 0 c).arrAt w (cfgs 0).N) (Proc.devRef .tc main_v11)
      = result m c :=
  (Pipeline.withArrays_arr spec0 launch0.win.arr_inj c _ _ 6).trans (final m c)

/-- The node memory after the host operations that follow the region. -/
theorem tail_memory (c : Dev nD) :
    Pipeline.afterTail₀ cfgs (dats m) 0 (V0 m) [hostOps1] c main_v18 = memoryNew m c := by
  unfold Pipeline.afterTail₀
  show StableHlo.after hostOps1 _ (Proc.devRef .tc main_v18) = _
  after_results
  rw [after_arg0, after_arg8, after_result]
  unfold memoryNew
  rw [← V_gathered m c]
  rfl

/-- The last-update vector after them. -/
theorem tail_updates (c : Dev nD) :
    Pipeline.afterTail₀ cfgs (dats m) 0 (V0 m) [hostOps1] c main_v25 = updatesNew m c := by
  unfold Pipeline.afterTail₀
  show StableHlo.after hostOps1 _ (Proc.devRef .tc main_v25) = _
  after_results
  rw [after_arg1, after_arg8, after_arg3]
  rfl

/-- THE RUN, READ: every weakly fair execution ends with the two results at those functions of the arguments and the
    arguments unchanged. -/
theorem run : θ_run defs (onTc (τ := τ) (main (F := Ideal))) ⟨m, fun _ => 0, ρ⟩ (fun r => ∀ c : Dev nD,
      r.2.mem ((c.tc : Thread nD τ).loc main_v18) = memoryNew m c
      ∧ r.2.mem ((c.tc : Thread nD τ).loc main_v25) = updatesNew m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v18 (Pipeline.mem_restRefs_of main_v18 (by decide) (by decide))).trans (tail_memory m c),
      ((h c).2 main_v25 (Pipeline.mem_restRefs_of main_v25 (by decide) (by decide))).trans (tail_updates m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.RefCell.lean ====
/-
  The reference's new states are the cell of `GruCell`, entry by entry.

  The reference multiplies the whole `[262144, 128]` arrays of messages and of gathered states into the transposed
  weights (a product over the 128 columns), adds each bias repeated down the rows, cuts the `[262144, 384]` results
  into the three gates' thirds and applies the gate arithmetic with the logistic function spelt out as
  `1 / (1 + e^(-t))` — which is what the logistic function of the extended reals is. Reading every operation at an
  index `(r, q)` leaves the cell at row `r`, lane `q`.
-/
import proofs.«116044_j78984448573532_1_alg».proof.Proof.Gen.ReferenceIdeal.Read
import proofs.«116044_j78984448573532_1_alg».proof.Proof.GruCell
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read Idealize.ShloMosaic
open Idealize.ShloMosaic.ValueIdx Cert.GruCell

variable (x0 : (⟨S1000000x128, .f32⟩ : BufTy).Contents (Elt Ideal)) (x2 : (⟨S262144x128, .f32⟩ : BufTy).Contents (Elt Ideal))
  (x4 x5 : (⟨S384x128, .f32⟩ : BufTy).Contents (Elt Ideal)) (x6 x7 : (⟨S384, .f32⟩ : BufTy).Contents (Elt Ideal))
  (x8 : (⟨S262144, .i32⟩ : BufTy).Contents (Elt Ideal))

/-- The message side's gate input at `(r, c)`: row `r` of the messages against row `c` of the stored weights (the
    transpose's column `c`), plus entry `c` of the bias. -/
theorem gi_apply (r : Fin 262144) (c : Fin 384) :
    val_main_v11 (F := Ideal) x2 x4 x6 (ix2 r c)
      = pre (fun k => x2 (ix2 r k)) (fun k c => x4 (ix2 c k)) (fun c => x6 (ix1 c)) c := by
  have el : ∀ k : Fin 128, lidx_main_v8 (ix2 r c) k = ix2 r k := fun k =>
    funext fun a => Fin.ext (by match a with | ⟨0, _⟩ => rfl | ⟨1, _⟩ => rfl)
  have er : ∀ k : Fin 128, idx_main_v7 (ridx_main_v8 (ix2 r c) k) = ix2 c k := fun k =>
    funext fun a => Fin.ext (by match a with | ⟨0, _⟩ => rfl | ⟨1, _⟩ => rfl)
  have eb : idx_main_v9 (idx_main_v10 (ix2 r c)) = ix1 c :=
    funext fun a => Fin.ext (by match a with | ⟨0, _⟩ => rfl)
  rw [val_main_v11_apply, val_main_v8_apply, val_main_v10_apply, val_main_v9_apply, eb, Ideal.addf_def]
  unfold pre
  congr 1
  refine Finset.sum_congr rfl fun k _ => ?_
  rw [val_main_v7_apply, el, er]

/-- The state side's gate input at `(r, c)`, over the gathered states. -/
theorem gh_apply (r : Fin 262144) (c : Fin 384) :
    val_main_v16 (F := Ideal) x0 x5 x7 x8 (ix2 r c)
      = pre (fun k => val_main_v6 (F := Ideal) x0 x8 (ix2 r k)) (fun k c => x5 (ix2 c k)) (fun c => x7 (ix1 c)) c := by
  have el : ∀ k : Fin 128, lidx_main_v13 (ix2 r c) k = ix2 r k := fun k =>
    funext fun a => Fin.ext (by match a with | ⟨0, _⟩ => rfl | ⟨1, _⟩ => rfl)
  have er : ∀ k : Fin 128, idx_main_v12 (ridx_main_v13 (ix2 r c) k) = ix2 c k := fun k =>
    funext fun a => Fin.ext (by match a with | ⟨0, _⟩ => rfl | ⟨1, _⟩ => rfl)
  have eb : idx_main_v14 (idx_main_v15 (ix2 r c)) = ix1 c :=
    funext fun a => Fin.ext (by match a with | ⟨0, _⟩ => rfl)
  refine (val_main_v16_apply x0 x5 x7 x8 (ix2 r c)).trans ?_
  unfold pre
  refine congrArg₂ (fun s b : EReal => s + b) ?_ ?_
  · refine (val_main_v13_apply x0 x5 x8 (ix2 r c)).trans (Finset.sum_congr rfl fun k _ => ?_)
    exact congrArg₂ (fun a b : EReal => a * b) (congrArg (val_main_v6 (F := Ideal) x0 x8) (el k))
      ((val_main_v12_apply x5 _).trans (congrArg x5 (er k)))
  · exact ((val_main_v15_apply x7 _).trans (val_main_v14_apply x7 _)).trans (congrArg x7 eb)

/-- A scalar one repeated over the array is the number one at every entry. -/
theorem one26 (i : S262144x128.Idx) : val_main_v26 (F := Ideal) i = 1 :=
  (val_main_v26_apply i).trans ((val_main_cst_apply _).trans one_f32)
theorem one28 (i : S262144x128.Idx) : val_main_v28 (F := Ideal) i = 1 :=
  (val_main_v28_apply i).trans ((val_main_cst_1_apply _).trans one_f32)
theorem one33 (i : S262144x128.Idx) : val_main_v33 (F := Ideal) i = 1 :=
  (val_main_v33_apply i).trans ((val_main_cst_2_apply _).trans one_f32)
theorem one35 (i : S262144x128.Idx) : val_main_v35 (F := Ideal) i = 1 :=
  (val_main_v35_apply i).trans ((val_main_cst_3_apply _).trans one_f32)
theorem one40 (i : S262144x128.Idx) : val_main_v40 (F := Ideal) i = 1 :=
  (val_main_v40_apply i).trans ((val_main_cst_4_apply _).trans one_f32)

/-- The three thirds of the message side's gate inputs at `(r, q)`. -/
theorem gi_r (r : Fin 262144) (q : Fin 128) : val_main_v17 (F := Ideal) x2 x4 x6 (ix2 r q)
    = pre (fun k => x2 (ix2 r k)) (fun k c => x4 (ix2 c k)) (fun c => x6 (ix1 c)) (lane 0 (by omega) q) :=
  (val_main_v17_apply x2 x4 x6 _).trans ((congrArg (val_main_v11 (F := Ideal) x2 x4 x6)
    (funext fun a => Fin.ext (by match a with | ⟨0, _⟩ => rfl | ⟨1, _⟩ => exact (Nat.zero_add _).symm) :
      idx_main_v17 (ix2 r q) = ix2 r (lane 0 (by omega) q))).trans (gi_apply x2 x4 x6 r _))
theorem gi_z (r : Fin 262144) (q : Fin 128) : val_main_v18 (F := Ideal) x2 x4 x6 (ix2 r q)
    = pre (fun k => x2 (ix2 r k)) (fun k c => x4 (ix2 c k)) (fun c => x6 (ix1 c)) (lane 128 (by omega) q) :=
  (val_main_v18_apply x2 x4 x6 _).trans ((congrArg (val_main_v11 (F := Ideal) x2 x4 x6)
    (funext fun a => Fin.ext (by match a with | ⟨0, _⟩ => rfl | ⟨1, _⟩ => rfl) :
      idx_main_v18 (ix2 r q) = ix2 r (lane 128 (by omega) q))).trans (gi_apply x2 x4 x6 r _))
theorem gi_n (r : Fin 262144) (q : Fin 128) : val_main_v19 (F := Ideal) x2 x4 x6 (ix2 r q)
    = pre (fun k => x2 (ix2 r k)) (fun k c => x4 (ix2 c k)) (fun c => x6 (ix1 c)) (lane 256 (by omega) q) :=
  (val_main_v19_apply x2 x4 x6 _).trans ((congrArg (val_main_v11 (F := Ideal) x2 x4 x6)
    (funext fun a => Fin.ext (by match a with | ⟨0, _⟩ => rfl | ⟨1, _⟩ => rfl) :
      idx_main_v19 (ix2 r q) = ix2 r (lane 256 (by omega) q))).trans (gi_apply x2 x4 x6 r _))

/-- The three thirds of the state side's. -/
theorem gh_r (r : Fin 262144) (q : Fin 128) : val_main_v20 (F := Ideal) x0 x5 x7 x8 (ix2 r q)
    = pre (fun k => val_main_v6 (F := Ideal) x0 x8 (ix2 r k)) (fun k c => x5 (ix2 c k)) (fun c => x7 (ix1 c))
        (lane 0 (by omega) q) :=
  (val_main_v20_apply x0 x5 x7 x8 _).trans ((congrArg (val_main_v16 (F := Ideal) x0 x5 x7 x8)
    (funext fun a => Fin.ext (by match a with | ⟨0, _⟩ => rfl | ⟨1, _⟩ => exact (Nat.zero_add _).symm) :
      idx_main_v20 (ix2 r q) = ix2 r (lane 0 (by omega) q))).trans (gh_apply x0 x5 x7 x8 r _))
theorem gh_z (r : Fin 262144) (q : Fin 128) : val_main_v21 (F := Ideal) x0 x5 x7 x8 (ix2 r q)
    = pre (fun k => val_main_v6 (F := Ideal) x0 x8 (ix2 r k)) (fun k c => x5 (ix2 c k)) (fun c => x7 (ix1 c))
        (lane 128 (by omega) q) :=
  (val_main_v21_apply x0 x5 x7 x8 _).trans ((congrArg (val_main_v16 (F := Ideal) x0 x5 x7 x8)
    (funext fun a => Fin.ext (by match a with | ⟨0, _⟩ => rfl | ⟨1, _⟩ => rfl) :
      idx_main_v21 (ix2 r q) = ix2 r (lane 128 (by omega) q))).trans (gh_apply x0 x5 x7 x8 r _))
theorem gh_n (r : Fin 262144) (q : Fin 128) : val_main_v22 (F := Ideal) x0 x5 x7 x8 (ix2 r q)
    = pre (fun k => val_main_v6 (F := Ideal) x0 x8 (ix2 r k)) (fun k c => x5 (ix2 c k)) (fun c => x7 (ix1 c))
        (lane 256 (by omega) q) :=
  (val_main_v22_apply x0 x5 x7 x8 _).trans ((congrArg (val_main_v16 (F := Ideal) x0 x5 x7 x8)
    (funext fun a => Fin.ext (by match a with | ⟨0, _⟩ => rfl | ⟨1, _⟩ => rfl) :
      idx_main_v22 (ix2 r q) = ix2 r (lane 256 (by omega) q))).trans (gh_apply x0 x5 x7 x8 r _))

/-- The gate arithmetic as the reference spells it, over the values it is applied to: `o` are the repeated ones,
    `a` and `b` the two sides' thirds, `h` the old state. -/
def spelt (o26 o28 o33 o35 o40 a0 a1 a2 b0 b1 b2 h : EReal) : EReal :=
  (o40 - Ideal.div o35 (o33 + Ideal.exp (-(a1 + b1))))
      * Ideal.tanh (a2 + Ideal.div o28 (o26 + Ideal.exp (-(a0 + b0))) * b2)
    + Ideal.div o35 (o33 + Ideal.exp (-(a1 + b1))) * h

/-- The reference's stage at an index is that arithmetic of the stages below it: every operation in between is
    entry by entry. -/
theorem v44_spelt (i : S262144x128.Idx) : val_main_v44 (F := Ideal) x0 x2 x4 x5 x6 x7 x8 i
    = spelt (val_main_v26 (F := Ideal) i) (val_main_v28 (F := Ideal) i) (val_main_v33 (F := Ideal) i)
        (val_main_v35 (F := Ideal) i) (val_main_v40 (F := Ideal) i)
        (val_main_v17 (F := Ideal) x2 x4 x6 i) (val_main_v18 (F := Ideal) x2 x4 x6 i) (val_main_v19 (F := Ideal) x2 x4 x6 i)
        (val_main_v20 (F := Ideal) x0 x5 x7 x8 i) (val_main_v21 (F := Ideal) x0 x5 x7 x8 i)
        (val_main_v22 (F := Ideal) x0 x5 x7 x8 i) (val_main_v6 (F := Ideal) x0 x8 i) := rfl

/-- With the ones read as the number one, the spelt-out arithmetic is the cell's: `1 / (1 + e^(-t))` is the logistic
    function of the extended reals by definition. -/
theorem spelt_one (a0 a1 a2 b0 b1 b2 h : EReal) :
    spelt 1 1 1 1 1 a0 a1 a2 b0 b1 b2 h
      = (1 - Ideal.logistic (a1 + b1)) * Ideal.tanh (a2 + Ideal.logistic (a0 + b0) * b2) + Ideal.logistic (a1 + b1) * h := rfl

/-- THE REFERENCE'S NEW STATES AT `(r, q)`: the cell at row `r` of the messages and of the gathered states, lane `q`. -/
theorem cell_apply (r : Fin 262144) (q : Fin 128) :
    val_main_v44 (F := Ideal) x0 x2 x4 x5 x6 x7 x8 (ix2 r q)
      = cellAt (fun k => x2 (ix2 r k)) (fun k => val_main_v6 (F := Ideal) x0 x8 (ix2 r k)) (fun k c => x4 (ix2 c k))
          (fun k c => x5 (ix2 c k)) (fun c => x6 (ix1 c)) (fun c => x7 (ix1 c)) q := by
  refine (v44_spelt x0 x2 x4 x5 x6 x7 x8 (ix2 r q)).trans ?_
  rw [one26, one28, one33, one35, one40, gi_r, gi_z, gi_n, gh_r, gh_z, gh_n, spelt_one]
  rfl

/-- So the reference's array of new states is `newState` of the arguments and the gathered states. -/
theorem v44_eq : val_main_v44 (F := Ideal) x0 x2 x4 x5 x6 x7 x8
    = newState x2 (val_main_v6 (F := Ideal) x0 x8) x4 x5 x6 x7 := by
  funext i
  obtain ⟨r, q, rfl⟩ : ∃ (r : Fin 262144) (q : Fin 128), i = ix2 r q := ⟨i 0, i 1, eq_ix2 i⟩
  exact (cell_apply x0 x2 x4 x5 x6 x7 x8 r q).trans (newState_apply _ _ _ _ _ _ r q).symm

end Cert.ReferenceIdeal.Hand

end
-- ==== Proof.lean ====
/-
  A temporal node memory updated by a gated recurrent cell: the kernel program against its reference.

  Both programs gather one state row per event from the node memory through the wrapped node ids, update each
  gathered row from its message row by the cell

      r = sigma (gi_r + gh_r),  z = sigma (gi_z + gh_z),  n = tanh (gi_n + r * gh_n),  new = (1 - z) * n + z * h,
      gi = x W_ih^T + b_ih,  gh = h W_hh^T + b_hh,  sigma t = 1 / (1 + e^(-t)),

  and scatter the new rows, and the timestamps, back through the same ids. The kernel program computes the cell in a
  region of 128 blocks of 2048 rows, with the weights transposed beforehand, the products accumulated into zero and
  the logistic function as one operation; the reference computes it on whole arrays with the logistic function spelt
  out. On the extended reals the changes of float format are the identity, both products are the sum over the 128
  contracted entries, and the logistic function IS `1 / (1 + e^(-t))`; the sums and products appear in the same
  arrangement on both sides, so no law of arithmetic — and nothing about finiteness — is needed: both arrays of new
  states are `GruCell.newState` of the same arguments (KernelArray.lean, RefCell.lean), and the gather before and the
  two scatters after are the same operations applied to equal operands.

  The three frames are the generated ones (the reference's is its run with the results dropped); the idealization
  rewrote nothing, so there is nothing to preserve.
-/
import proofs.«116044_j78984448573532_1_alg».proof.Defs
import proofs.«116044_j78984448573532_1_alg».proof.Proof.Gen.Kernel
import proofs.«116044_j78984448573532_1_alg».proof.Proof.Gen.Kernel.Skeleton
import proofs.«116044_j78984448573532_1_alg».proof.Proof.Gen.Kernel.Launch
import proofs.«116044_j78984448573532_1_alg».proof.Proof.Gen.Kernel.Points
import proofs.«116044_j78984448573532_1_alg».proof.Proof.Gen.Kernel.Frame
import proofs.«116044_j78984448573532_1_alg».proof.Proof.Gen.KernelIdeal
import proofs.«116044_j78984448573532_1_alg».proof.Proof.Gen.KernelIdeal.Skeleton
import proofs.«116044_j78984448573532_1_alg».proof.Proof.Gen.KernelIdeal.Launch
import proofs.«116044_j78984448573532_1_alg».proof.Proof.Gen.KernelIdeal.Points
import proofs.«116044_j78984448573532_1_alg».proof.Proof.Gen.KernelIdeal.Frame
import proofs.«116044_j78984448573532_1_alg».proof.Proof.Gen.ReferenceIdeal
import proofs.«116044_j78984448573532_1_alg».proof.Proof.Gen.ReferenceIdeal.Run
import proofs.«116044_j78984448573532_1_alg».proof.Proof.Gen.ReferenceIdeal.Read
import proofs.«116044_j78984448573532_1_alg».proof.Proof.Gen.Pre_finite_inputs
import proofs.«116044_j78984448573532_1_alg».proof.Proof.KernelRun
import proofs.«116044_j78984448573532_1_alg».proof.Proof.RefCell
import Idealize.ShloMosaic.Adequacy
import Idealize.ShloMosaic.Init

noncomputable section

namespace Cert.Proof

open Idealize.ShloMosaic Idealize.SL.Sem

/-- Both programs wrap the node ids the same way, -/
theorem ids_eq (x8 : (⟨Cert.ReferenceIdeal.S262144, .i32⟩ : BufTy).Contents (Elt Ideal)) :
    Cert.ReferenceIdeal.Read.val_main_v50 (F := Ideal) x8 = Cert.KernelIdeal.Hand.idCol x8 := rfl

/-- and gather the same rows through them. -/
theorem gathered_eq (x0 : (⟨Cert.ReferenceIdeal.S1000000x128, .f32⟩ : BufTy).Contents (Elt Ideal))
    (x8 : (⟨Cert.ReferenceIdeal.S262144, .i32⟩ : BufTy).Contents (Elt Ideal)) :
    Cert.ReferenceIdeal.Read.val_main_v6 (F := Ideal) x0 x8
      = Host.gather Cert.KernelIdeal.gather_S1000000x128_S262144x1_S262144x128_1_0_n_n_0_1_1128 x0 (Cert.KernelIdeal.Hand.idCol x8) := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the node memory at the scatter of `newState` and
    the last-update vector at the scatter of the timestamps. -/
theorem algebraic : Cert.algebraic_KernelIdeal_ReferenceIdeal := by
  intro m ρ m' ρ' _ hagree
  refine ⟨fun c => Cert.KernelIdeal.Hand.memoryNew m c, fun c => Cert.KernelIdeal.Hand.updatesNew m c,
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v51_eq]
    unfold Cert.ReferenceIdeal.Read.val_main_v51
    rw [Cert.ReferenceIdeal.Hand.v44_eq, ids_eq, gathered_eq, a0, a2, a4, a5, a6, a7, a8]
    rfl
  · rw [a1, a3, a8]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
